-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x4 : Shape := ⟨2, ![8192, 4]⟩
abbrev S4x1024x1024 : Shape := ⟨3, ![4, 1024, 1024]⟩
abbrev S4x1024x4 : Shape := ⟨3, ![4, 1024, 4]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x4 : S_.BroadcastsInDim S8192x4 (![] : Fin 0 → Fin S8192x4.rank)
  reducesTo_S8192x4_S_d0_1 : S8192x4.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024x4 : S_.BroadcastsInDim S4x1024x4 (![] : Fin 0 → Fin S4x1024x4.rank)
  reducesTo_S4x1024x4_S_d0_1_2 : S4x1024x4.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part2 {F : FTy → Type} [FloatOps F] (main_arg7 : FVec F S4x1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  main_v38

def fn_part1 {F : FTy → Type} [FloatOps F] (main_arg4 : FVec F S4x1024x1024 .f32) (main_arg5 : FVec F S4x1024x1024 .f32) (main_arg6 : FVec F S4x1024x4 .f32) (main_arg7 : FVec F S4x1024 .f32) (main_v13 : IVec S_ 1) (main_v16 : IVec S8192x4 1) : IVec S_ 1 :=
  let main_c_5 : IVec S_ 1 := constantI S_ 1 1#1
  let main_v17 : IVec S_ 1 := (fun x v => Host.reduce IntOp.andi x v reducesTo_S8192x4_S_d0_1 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024x4 .f32 := Host.absf main_arg6
  let main_cst_10 : FVec F S_ .f32 := constant S_ .f32 0x7F800000#32
  let main_v30 : FVec F S4x1024x4 .f32 := broadcastInDim S4x1024x4 ![] bcast_S_S4x1024x4 main_cst_10
  let main_v31 : IVec S4x1024x4 1 := cmpf .olt main_v29 main_v30
  let main_c_11 : IVec S_ 1 := constantI S_ 1 1#1
  let main_v32 : IVec S_ 1 := (fun x v => Host.reduce IntOp.andi x v reducesTo_S4x1024x4_S_d0_1_2 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S8192x1024 .f32) (main_arg3 : FVec F S8192x4 .f32) (main_arg4 : FVec F S4x1024x1024 .f32) (main_arg5 : FVec F S4x1024x1024 .f32) (main_arg6 : FVec F S4x1024x4 .f32) (main_arg7 : FVec F S4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x4 .f32 := Host.absf main_arg3
  let main_cst_4 : FVec F S_ .f32 := constant S_ .f32 0x7F800000#32
  let main_v15 : FVec F S8192x4 .f32 := broadcastInDim S8192x4 ![] bcast_S_S8192x4 main_cst_4
  let main_v16 : IVec S8192x4 1 := cmpf .olt main_v14 main_v15
  fn_part1 (F := F) main_arg4 main_arg5 main_arg6 main_arg7 main_v13 main_v16
-- ==== Kernel.lean ====
abbrev S8192x1024 : Shape := ⟨2, ![8192, 1024]⟩
abbrev S8192x4 : Shape := ⟨2, ![8192, 4]⟩
abbrev S4x1024x1024 : Shape := ⟨3, ![4, 1024, 1024]⟩
abbrev S4x1024x4 : Shape := ⟨3, ![4, 1024, 4]⟩
abbrev S4x1024 : Shape := ⟨2, ![4, 1024]⟩
abbrev S4096x1024 : Shape := ⟨2, ![4096, 1024]⟩
abbrev S4096x4 : Shape := ⟨2, ![4096, 4]⟩
abbrev S1x4096 : Shape := ⟨2, ![1, 4096]⟩
abbrev S256x1024 : Shape := ⟨2, ![256, 1024]⟩
abbrev S256x4 : Shape := ⟨2, ![256, 4]⟩
abbrev S256x4096 : Shape := ⟨2, ![256, 4096]⟩

abbrev nBuf : Space → Nat
  | .hbm => 17
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x4, .f32⟩
  | .hbm, ⟨4, _⟩ => ⟨S4x1024x1024, .f32⟩
  | .hbm, ⟨5, _⟩ => ⟨S4x1024x1024, .f32⟩
  | .hbm, ⟨6, _⟩ => ⟨S4x1024x4, .f32⟩
  | .hbm, ⟨7, _⟩ => ⟨S4x1024, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x4, .f32⟩
  | .hbm, ⟨13, _⟩ => ⟨S4096x4, .bf16⟩
  | .hbm, ⟨14, _⟩ => ⟨S1x4096, .f32⟩
  | .hbm, ⟨15, _⟩ => ⟨S8192x1024, .f32⟩
  | .hbm, ⟨16, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x4, .f32⟩
  | .local _ .vmem, ⟨7, _⟩ => ⟨S256x4, .f32⟩
  | .local _ .vmem, ⟨8, _⟩ => ⟨S4096x1024, .bf16⟩
  | .local _ .vmem, ⟨9, _⟩ => ⟨S4096x1024, .bf16⟩
  | .local _ .vmem, ⟨10, _⟩ => ⟨S4096x4, .bf16⟩
  | .local _ .vmem, ⟨11, _⟩ => ⟨S1x4096, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x4 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4x1024x1024_S4096x1024 : S4x1024x1024.ShapeCasts S4096x1024
  bitsLt_bf16_f32 : FTy.bits .bf16 < FTy.bits .f32
  shapeCasts_S4x1024x4_S4096x4 : S4x1024x4.ShapeCasts S4096x4
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  inb_S256x4_S256x4_0_0 : ∀ a, (![0, 0] : Fin 2 → Nat) a + S256x4.size a ≤ S256x4.size a
  h_S256x4 : 0 < S256x4.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096x4_S4096x4_0_0 : ∀ a, (![0, 0] : Fin 2 → Nat) a + S4096x4.size a ≤ S4096x4.size a
  h_S4096x4 : 0 < S4096x4.numel
  shapeCasts_S4096x4_S4096x4 : S4096x4.ShapeCasts S4096x4
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  dot_S256x4_S4096x4_S256x4096_1_1_0_0_n_n_wf : DotDims.WF S256x4 S4096x4 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4.size a ≤ S8192x4.size a
  hwx0_3 : ∀ i : grid0.Coords, EltTy.bits .f32 = 32 ∨ (Rect.block (s := S8192x4) S256x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x4.size a ≤ S4096x4.size a
  hwx0_6 : ∀ i : grid0.Coords, EltTy.bits .bf16 = 32 ∨ (Rect.block (s := S4096x4) S4096x4.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4_S4096x4_S256x4096_1_1_0_0_n_n : DotDims S256x4 S4096x4 S256x4096 where
  lhsContracting := [1]
  rhsContracting := [1]
  lhsNonContracting := [0]
  rhsNonContracting := [0]
  lhsBatch := []
  rhsBatch := []
  wf := dot_S256x4_S4096x4_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S4096x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_1) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x4 : Shape := ⟨2, ![8192, 4]⟩
abbrev S4x1024x1024 : Shape := ⟨3, ![4, 1024, 1024]⟩
abbrev S4x1024x4 : Shape := ⟨3, ![4, 1024, 4]⟩
abbrev S4x1024 : Shape := ⟨2, ![4, 1024]⟩
abbrev S8192x4x1024 : Shape := ⟨3, ![8192, 4, 1024]⟩
abbrev S1x4x1024 : Shape := ⟨3, ![1, 4, 1024]⟩
abbrev S8192x1x1024 : Shape := ⟨3, ![8192, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x4, .f32⟩
  | .hbm, ⟨4, _⟩ => ⟨S4x1024x1024, .f32⟩
  | .hbm, ⟨5, _⟩ => ⟨S4x1024x1024, .f32⟩
  | .hbm, ⟨6, _⟩ => ⟨S4x1024x4, .f32⟩
  | .hbm, ⟨7, _⟩ => ⟨S4x1024, .f32⟩
  | .hbm, ⟨8, _⟩ => ⟨S8192x4x1024, .f32⟩
  | .hbm, ⟨9, _⟩ => ⟨S8192x4x1024, .f32⟩
  | .hbm, ⟨10, _⟩ => ⟨S8192x4x1024, .f32⟩
  | .hbm, ⟨11, _⟩ => ⟨S8192x4x1024, .f32⟩
  | .hbm, ⟨12, _⟩ => ⟨S8192x4x1024, .f32⟩
  | .hbm, ⟨13, _⟩ => ⟨S1x4x1024, .f32⟩
  | .hbm, ⟨14, _⟩ => ⟨S8192x4x1024, .f32⟩
  | .hbm, ⟨15, _⟩ => ⟨S8192x4x1024, .f32⟩
  | .hbm, ⟨16, _⟩ => ⟨S8192x1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S8192x4x1024_0_1_2 : S1x4x1024.BroadcastsInDim S8192x4x1024 (![0, 1, 2] : Fin 3 → Fin S8192x4x1024.rank)
  slices_S8192x4x1024_S8192x1x1024_0_0_0 : S8192x4x1024.Slices ![0, 0, 0] S8192x1x1024
  shapeCasts_S8192x1x1024_S8192x1024 : S8192x1x1024.ShapeCasts S8192x1024
  bcast_S_S8192x1024 : S_.BroadcastsInDim S8192x1024 (![] : Fin 0 → Fin S8192x1024.rank)
  slices_S8192x4x1024_S8192x1x1024_0_1_0 : S8192x4x1024.Slices ![0, 1, 0] S8192x1x1024
  slices_S8192x4x1024_S8192x1x1024_0_2_0 : S8192x4x1024.Slices ![0, 2, 0] S8192x1x1024
  slices_S8192x4x1024_S8192x1x1024_0_3_0 : S8192x4x1024.Slices ![0, 3, 0] S8192x1x1024
  dot_S8192x1024_S4x1024x1024_S8192x4x1024_1_2_0_01_n_n_wf : DotDims.WF S8192x1024 S4x1024x1024 S8192x4x1024 [1] [2] [0] [0, 1] [] []
  dot_S8192x4_S4x1024x4_S8192x4x1024_1_2_0_01_n_n_wf : DotDims.WF S8192x4 S4x1024x4 S8192x4x1024 [1] [2] [0] [0, 1] [] []

variable [Facts₀]

def dot_S8192x1024_S4x1024x1024_S8192x4x1024_1_2_0_01_n_n : DotDims S8192x1024 S4x1024x1024 S8192x4x1024 where
  lhsContracting := [1]
  rhsContracting := [2]
  lhsNonContracting := [0]
  rhsNonContracting := [0, 1]
  lhsBatch := []
  rhsBatch := []
  wf := dot_S8192x1024_S4x1024x1024_S8192x4x1024_1_2_0_01_n_n_wf
def dot_S8192x4_S4x1024x4_S8192x4x1024_1_2_0_01_n_n : DotDims S8192x4 S4x1024x4 S8192x4x1024 where
  lhsContracting := [1]
  rhsContracting := [2]
  lhsNonContracting := [0]
  rhsNonContracting := [0, 1]
  lhsBatch := []
  rhsBatch := []
  wf := dot_S8192x4_S4x1024x4_S8192x4x1024_1_2_0_01_n_n_wf

class Facts : Prop extends Facts₀ where

variable [Facts]
-- ==== Proof.CellSpec.lean ====
/-
  The recurrent cell's update as one function of the eight argument arrays, entry by entry.

  For a batch row b and a unit h, gate g (of four: input, forget, output, candidate) has the pre-activation
      z g b h = ((∑ k, x b k · Wx g h k) + (∑ k, hid b k · Wh g h k) + (∑ k, nb b k · Wn g h k)) + bias g h,
  the three sums added in this order and the bias last.  The next cell state is
      σ (z 1) · cell + σ (z 0) · tanh (z 3)
  and the next hidden state is  σ (z 2) · tanh (next cell), where σ t = 1 / (1 + e^(-t)) is the logistic function with
  its limits 0 and 1 at the infinities.  Everything is read on the extended reals.
-/
import Idealize.ShloMosaic.PureOps.Ideal
import Idealize.ShloMosaic.Lib.ValueIdx

noncomputable section

namespace Cert.CellSpec

open Idealize.ShloMosaic Idealize.ShloMosaic.ValueIdx

abbrev SRows : Shape := ⟨2, ![8192, 1024]⟩
abbrev SNbr : Shape := ⟨2, ![8192, 4]⟩
abbrev SWt : Shape := ⟨3, ![4, 1024, 1024]⟩
abbrev SWtNbr : Shape := ⟨3, ![4, 1024, 4]⟩
abbrev SBias : Shape := ⟨2, ![4, 1024]⟩

variable (x hid cel : SRows.Idx → EReal) (nb : SNbr.Idx → EReal) (wx wh : SWt.Idx → EReal)
  (wn : SWtNbr.Idx → EReal) (bias : SBias.Idx → EReal)

/-- The pre-activation of gate `g` at batch row `b`, unit `h`: the three projections added in order, then the bias. -/
def gate (g : Fin 4) (b : Fin 8192) (h : Fin 1024) : EReal :=
  (((∑ k : Fin 1024, x (ix2 b k) * wx (ix3 g h k)) + (∑ k : Fin 1024, hid (ix2 b k) * wh (ix3 g h k)))
    + (∑ k : Fin 4, nb (ix2 b k) * wn (ix3 g h k))) + bias (ix2 g h)

/-- The next cell state: the forget gate times the old cell plus the input gate times the candidate. -/
def nextCell (b : Fin 8192) (h : Fin 1024) : EReal :=
  Ideal.logistic (gate x hid nb wx wh wn bias 1 b h) * cel (ix2 b h)
    + Ideal.logistic (gate x hid nb wx wh wn bias 0 b h) * Ideal.tanh (gate x hid nb wx wh wn bias 3 b h)

/-- The next hidden state: the output gate times the hyperbolic tangent of the next cell state. -/
def nextHidden (b : Fin 8192) (h : Fin 1024) : EReal :=
  Ideal.logistic (gate x hid nb wx wh wn bias 2 b h) * Ideal.tanh (nextCell x hid cel nb wx wh wn bias b h)

/-- The next cell state as an array. -/
def cellArr : SRows.Idx → EReal := fun i => nextCell x hid cel nb wx wh wn bias (i 0) (i 1)

/-- The next hidden state as an array. -/
def hiddenArr : SRows.Idx → EReal := fun i => nextHidden x hid cel nb wx wh wn bias (i 0) (i 1)

end Cert.CellSpec

end
-- ==== Proof.RefCell.lean ====
/-
  The reference computes the cell update of the specification.

  The reference forms the gate pre-activations as an array indexed (batch row, gate, unit): each of the three inputs
  contracted with its weights along the last axis of both, the three added in order, the bias (which does not depend on
  the batch row) added last.  Gate g is then the slice at g of the middle axis, flattened back to (batch row, unit): the
  flattening sends (b, h) to the entry (b, 0, h) of the slice, which is the entry (b, g, h) of the array.  The logistic
  function is spelt 1 / (1 + exp (-z)) with the constant one; on the extended reals that is the logistic function itself.
-/
import proofs.«124318_j38792144618011_2_alg».proof.Proof.Gen.ReferenceIdeal.Read
import proofs.«124318_j38792144618011_2_alg».proof.Proof.CellSpec
import Idealize.ShloMosaic.Lib.IdealHost

noncomputable section

namespace Cert.ReferenceIdeal.RefCell

open Cert.ReferenceIdeal Cert.ReferenceIdeal.Read Idealize.ShloMosaic Idealize.ShloMosaic.ValueIdx
open Cert.CellSpec (gate nextCell nextHidden cellArr hiddenArr)

variable (x0 x1 x2 : (⟨S8192x1024, .f32⟩ : BufTy).Contents (Elt Ideal)) (x3 : (⟨S8192x4, .f32⟩ : BufTy).Contents (Elt Ideal))
  (x4 x5 : (⟨S4x1024x1024, .f32⟩ : BufTy).Contents (Elt Ideal)) (x6 : (⟨S4x1024x4, .f32⟩ : BufTy).Contents (Elt Ideal))
  (x7 : (⟨S4x1024, .f32⟩ : BufTy).Contents (Elt Ideal))

/-- Entry (b, g, h) of the reference's array of pre-activations is the specification's gate g at (b, h). -/
theorem pre_eq (g : Fin 4) (b : Fin 8192) (h : Fin 1024) :
    val_main_v7 (F := Ideal) x0 x1 x3 x4 x5 x6 x7 (ix3 b g h) = gate x0 x1 x3 x4 x5 x6 x7 g b h := by
  have el0 : ∀ k, lidx_main_v0 (ix3 b g h) k = ix2 b k := fun k => funext fun a => Fin.ext (by
    match a with | ⟨0, _⟩ => rfl | ⟨1, _⟩ => rfl)
  have er0 : ∀ k, ridx_main_v0 (ix3 b g h) k = ix3 g h k := fun k => funext fun a => Fin.ext (by
    match a with | ⟨0, _⟩ => rfl | ⟨1, _⟩ => rfl | ⟨2, _⟩ => rfl)
  have el1 : ∀ k, lidx_main_v1 (ix3 b g h) k = ix2 b k := fun k => funext fun a => Fin.ext (by
    match a with | ⟨0, _⟩ => rfl | ⟨1, _⟩ => rfl)
  have er1 : ∀ k, ridx_main_v1 (ix3 b g h) k = ix3 g h k := fun k => funext fun a => Fin.ext (by
    match a with | ⟨0, _⟩ => rfl | ⟨1, _⟩ => rfl | ⟨2, _⟩ => rfl)
  have el3 : ∀ k, lidx_main_v3 (ix3 b g h) k = ix2 b k := fun k => funext fun a => Fin.ext (by
    match a with | ⟨0, _⟩ => rfl | ⟨1, _⟩ => rfl)
  have er3 : ∀ k, ridx_main_v3 (ix3 b g h) k = ix3 g h k := fun k => funext fun a => Fin.ext (by
    match a with | ⟨0, _⟩ => rfl | ⟨1, _⟩ => rfl | ⟨2, _⟩ => rfl)
  have eb : idx_main_v5 (idx_main_v6 (ix3 b g h)) = ix2 g h := funext fun a => Fin.ext (by
    match a with | ⟨0, _⟩ => rfl | ⟨1, _⟩ => rfl)
  rw [val_main_v7_apply, val_main_v4_apply, val_main_v2_apply, val_main_v0_apply, val_main_v1_apply, val_main_v3_apply,
    val_main_v6_apply, val_main_v5_apply]
  simp only [el0, er0, el1, er1, el3, er3, eb]
  rfl

/-! ## Where the flattened slices read the array of pre-activations -/

theorem at_gate0 (b : Fin 8192) (h : Fin 1024) : idx_main_v8 (idx_main_v9 (ix2 b h)) = ix3 b (0 : Fin 4) h :=
  funext fun a => Fin.ext (by
    have hh : h.val < 1024 := h.isLt
    match a with
    | ⟨0, _⟩ => show (b.val * 1024 + h.val) / 1024 = b.val; omega
    | ⟨1, _⟩ => rfl
    | ⟨2, _⟩ => show (b.val * 1024 + h.val) % 1024 = h.val; omega)

theorem at_gate1 (b : Fin 8192) (h : Fin 1024) : idx_main_v16 (idx_main_v17 (ix2 b h)) = ix3 b (1 : Fin 4) h :=
  funext fun a => Fin.ext (by
    have hh : h.val < 1024 := h.isLt
    match a with
    | ⟨0, _⟩ => show (b.val * 1024 + h.val) / 1024 = b.val; omega
    | ⟨1, _⟩ => rfl
    | ⟨2, _⟩ => show (b.val * 1024 + h.val) % 1024 = h.val; omega)

theorem at_gate2 (b : Fin 8192) (h : Fin 1024) : idx_main_v24 (idx_main_v25 (ix2 b h)) = ix3 b (2 : Fin 4) h :=
  funext fun a => Fin.ext (by
    have hh : h.val < 1024 := h.isLt
    match a with
    | ⟨0, _⟩ => show (b.val * 1024 + h.val) / 1024 = b.val; omega
    | ⟨1, _⟩ => rfl
    | ⟨2, _⟩ => show (b.val * 1024 + h.val) % 1024 = h.val; omega)

theorem at_gate3 (b : Fin 8192) (h : Fin 1024) : idx_main_v32 (idx_main_v33 (ix2 b h)) = ix3 b (3 : Fin 4) h :=
  funext fun a => Fin.ext (by
    have hh : h.val < 1024 := h.isLt
    match a with
    | ⟨0, _⟩ => show (b.val * 1024 + h.val) / 1024 = b.val; omega
    | ⟨1, _⟩ => rfl
    | ⟨2, _⟩ => show (b.val * 1024 + h.val) % 1024 = h.val; omega)

/-- The reference's spelling of the logistic function, one over one plus the exponential of the negation, with the
    constant one as its bit pattern, is the logistic function on every extended real. -/
theorem logistic_spelt (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = _
  rw [Ideal.ofBits_one_f32]
  rfl

/-! ## The three logistic gates and the candidate at (b, h) -/

theorem in_gate (b : Fin 8192) (h : Fin 1024) :
    val_main_v15 (F := Ideal) x0 x1 x3 x4 x5 x6 x7 (ix2 b h) = Ideal.logistic (gate x0 x1 x3 x4 x5 x6 x7 0 b h) := by
  rw [val_main_v15_apply, val_main_v14_apply, val_main_cst_0_apply, val_main_v13_apply, val_main_v12_apply, val_main_cst_apply,
    val_main_v11_apply, val_main_v10_apply, val_main_v9_apply, val_main_v8_apply, at_gate0, pre_eq]
  exact logistic_spelt _

theorem forget_gate (b : Fin 8192) (h : Fin 1024) :
    val_main_v23 (F := Ideal) x0 x1 x3 x4 x5 x6 x7 (ix2 b h) = Ideal.logistic (gate x0 x1 x3 x4 x5 x6 x7 1 b h) := by
  rw [val_main_v23_apply, val_main_v22_apply, val_main_cst_2_apply, val_main_v21_apply, val_main_v20_apply, val_main_cst_1_apply,
    val_main_v19_apply, val_main_v18_apply, val_main_v17_apply, val_main_v16_apply, at_gate1, pre_eq]
  exact logistic_spelt _

theorem out_gate (b : Fin 8192) (h : Fin 1024) :
    val_main_v31 (F := Ideal) x0 x1 x3 x4 x5 x6 x7 (ix2 b h) = Ideal.logistic (gate x0 x1 x3 x4 x5 x6 x7 2 b h) := by
  rw [val_main_v31_apply, val_main_v30_apply, val_main_cst_4_apply, val_main_v29_apply, val_main_v28_apply, val_main_cst_3_apply,
    val_main_v27_apply, val_main_v26_apply, val_main_v25_apply, val_main_v24_apply, at_gate2, pre_eq]
  exact logistic_spelt _

theorem candidate (b : Fin 8192) (h : Fin 1024) :
    val_main_v34 (F := Ideal) x0 x1 x3 x4 x5 x6 x7 (ix2 b h) = Ideal.tanh (gate x0 x1 x3 x4 x5 x6 x7 3 b h) := by
  rw [val_main_v34_apply, val_main_v33_apply, val_main_v32_apply, at_gate3, pre_eq]
  rfl

/-! ## The two results -/

/-- The reference's second result is the specification's next cell state. -/
theorem cell_eq : val_main_v37 (F := Ideal) x0 x1 x2 x3 x4 x5 x6 x7 = cellArr x0 x1 x2 x3 x4 x5 x6 x7 := by
  funext i
  obtain ⟨b, h, rfl⟩ : ∃ (b : Fin 8192) (h : Fin 1024), i = ix2 b h := ⟨i 0, i 1, eq_ix2 i⟩
  rw [val_main_v37_apply, val_main_v35_apply, val_main_v36_apply, forget_gate, in_gate, candidate]
  rfl

/-- The reference's first result is the specification's next hidden state. -/
theorem hidden_eq : val_main_v39 (F := Ideal) x0 x1 x2 x3 x4 x5 x6 x7 = hiddenArr x0 x1 x2 x3 x4 x5 x6 x7 := by
  funext i
  obtain ⟨b, h, rfl⟩ : ∃ (b : Fin 8192) (h : Fin 1024), i = ix2 b h := ⟨i 0, i 1, eq_ix2 i⟩
  rw [val_main_v39_apply, val_main_v38_apply, out_gate, cell_eq]
  rfl

end Cert.ReferenceIdeal.RefCell

end
-- ==== Proof.LibMatmulNT.lean ====
/-
  A matrix product whose two operands are both contracted along their second axis, accumulated into zero, read at
  one entry.

  Over the extended reals the product of an A by K matrix l with a B by K matrix r, each row of r contracted against
  each row of l, has at entry (p, q) the sum over k of l (p, k) r (q, k): the accumulator is zero, and the contraction
  index of a product with one contracted axis is that axis' coordinate. In particular entry (p, q) reads r only in its
  row q. The lemma is stated for any dimension record whose operand indices are (row, contraction) on the left and
  (column, contraction) on the right, which the four coordinate hypotheses say.
-/
import Idealize.ShloMosaic.PureOps.Ideal.Laws
import Idealize.ShloMosaic.Lib.ValueIdx

noncomputable section

namespace Cert.LibMatmulNT

open Idealize.ShloMosaic Idealize.ShloMosaic.ValueIdx

/-- Entry (p, q) of a product of an A by K with a B by K matrix, contracted along K into the zero accumulator, is the
    sum over K of the products of row p of the left with row q of the right. -/
theorem matmul_zero_nt_ix2 {A K B : ℕ} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (i (1 : Fin 2)).val)
    (hr1 : ∀ i q, (d.rhsIdx i q (1 : Fin 2)).val = (q ⟨0, by omega⟩).val)
    (prec : Option ContractPrecision)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.LibMatmulNT

end
-- ==== Proof.GateSlab.lean ====
/-
  The gate pre-activations a grid point computes, read at one entry.

  A grid point holds 256 batch rows.  From its blocks of the input, the hidden state and the neighbour features (256 rows
  each) and the three stacked weight matrices (4096 rows: gate g, unit h at row 1024 g + h) it forms one 256 by 4096 slab:
  each operand contracted with the rows of its weight matrix, the three products added in order, and the one bias row added
  to every batch row.  So entry (p, q) of the slab is
      ((∑ k, x p k · wx q k) + (∑ k, hid p k · wh q k) + (∑ k, nb p k · wn q k)) + bias 0 q.
  The narrowing of the operands before the products is the identity on the extended reals, and each product starts from the
  zero accumulator.
-/
import proofs.«124318_j38792144618011_2_alg».proof.Proof.Gen.KernelIdeal.Skeleton
import proofs.«124318_j38792144618011_2_alg».proof.Proof.LibMatmulNT
import Idealize.ShloMosaic.Lib.ValueLayout
import Idealize.ShloMosaic.Lib.Pipeline.Value
import Idealize.ShloMosaic.PureOps.Ideal.Laws

noncomputable section

namespace Cert.KernelIdeal.GateSlab

open Cert.KernelIdeal Cert.KernelIdeal.Gen Idealize.ShloMosaic Idealize.ShloMosaic.ValueIdx

/-! ## The operand indices of the two contractions -/

theorem wide_l0 (i : S256x4096.Idx) (q : dot_S256x1024_S4096x1024_S256x4096_1_1_0_0_n_n.contr.Idx) :
    (dot_S256x1024_S4096x1024_S256x4096_1_1_0_0_n_n.lhsIdx i q (0 : Fin 2)).val = (i (0 : Fin 2)).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl

theorem wide_l1 (i : S256x4096.Idx) (q : dot_S256x1024_S4096x1024_S256x4096_1_1_0_0_n_n.contr.Idx) :
    (dot_S256x1024_S4096x1024_S256x4096_1_1_0_0_n_n.lhsIdx i q (1 : Fin 2)).val = (q ⟨0, by decide⟩).val :=
  dot_S256x1024_S4096x1024_S256x4096_1_1_0_0_n_n.lhsIdx_val_of_single rfl i q

theorem wide_r0 (i : S256x4096.Idx) (q : dot_S256x1024_S4096x1024_S256x4096_1_1_0_0_n_n.contr.Idx) :
    (dot_S256x1024_S4096x1024_S256x4096_1_1_0_0_n_n.rhsIdx i q (0 : Fin 2)).val = (i (1 : Fin 2)).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl

theorem wide_r1 (i : S256x4096.Idx) (q : dot_S256x1024_S4096x1024_S256x4096_1_1_0_0_n_n.contr.Idx) :
    (dot_S256x1024_S4096x1024_S256x4096_1_1_0_0_n_n.rhsIdx i q (1 : Fin 2)).val = (q ⟨0, by decide⟩).val :=
  dot_S256x1024_S4096x1024_S256x4096_1_1_0_0_n_n.rhsIdx_val_of_single rfl i q

theorem thin_l0 (i : S256x4096.Idx) (q : dot_S256x4_S4096x4_S256x4096_1_1_0_0_n_n.contr.Idx) :
    (dot_S256x4_S4096x4_S256x4096_1_1_0_0_n_n.lhsIdx i q (0 : Fin 2)).val = (i (0 : Fin 2)).val := by
  unfold DotDims.lhsIdx
  rw [dif_neg (show ¬(0 : Fin S256x4.rank) ∈ dot_S256x4_S4096x4_S256x4096_1_1_0_0_n_n.lhsBatch by decide), dif_pos (show (0 : Fin S256x4.rank) ∈ dot_S256x4_S4096x4_S256x4096_1_1_0_0_n_n.lhsNonContracting by decide)]
  rfl

theorem thin_l1 (i : S256x4096.Idx) (q : dot_S256x4_S4096x4_S256x4096_1_1_0_0_n_n.contr.Idx) :
    (dot_S256x4_S4096x4_S256x4096_1_1_0_0_n_n.lhsIdx i q (1 : Fin 2)).val = (q ⟨0, by decide⟩).val :=
  dot_S256x4_S4096x4_S256x4096_1_1_0_0_n_n.lhsIdx_val_of_single rfl i q

theorem thin_r0 (i : S256x4096.Idx) (q : dot_S256x4_S4096x4_S256x4096_1_1_0_0_n_n.contr.Idx) :
    (dot_S256x4_S4096x4_S256x4096_1_1_0_0_n_n.rhsIdx i q (0 : Fin 2)).val = (i (1 : Fin 2)).val := by
  unfold DotDims.rhsIdx
  rw [dif_neg (show ¬(0 : Fin S4096x4.rank) ∈ dot_S256x4_S4096x4_S256x4096_1_1_0_0_n_n.rhsBatch by decide), dif_pos (show (0 : Fin S4096x4.rank) ∈ dot_S256x4_S4096x4_S256x4096_1_1_0_0_n_n.rhsNonContracting by decide)]
  rfl

theorem thin_r1 (i : S256x4096.Idx) (q : dot_S256x4_S4096x4_S256x4096_1_1_0_0_n_n.contr.Idx) :
    (dot_S256x4_S4096x4_S256x4096_1_1_0_0_n_n.rhsIdx i q (1 : Fin 2)).val = (q ⟨0, by decide⟩).val :=
  dot_S256x4_S4096x4_S256x4096_1_1_0_0_n_n.rhsIdx_val_of_single rfl i q

/-! ## The slab at an entry -/

/-- Entry (p, q) of the slab of gate pre-activations: the three row-against-row contractions added in order, then the
    bias row at q. -/
theorem slab_apply (v0 v2 : Vec Ideal S256x1024 .f32) (v4 : Vec Ideal S256x4 .f32) (v7 v10 : Vec Ideal S4096x1024 .bf16)
    (v14 : Vec Ideal S4096x4 .bf16) (v18 : Vec Ideal S1x4096 .f32) (p : Fin 256) (q : Fin 4096) :
    k0_pay1 (F := Ideal) v0 v2 v4 v7 v10 v14 v18 (ix2 p q)
      = (((∑ k : Fin 1024, v0 (ix2 p k) * v7 (ix2 q k)) + (∑ k : Fin 1024, v2 (ix2 p k) * v10 (ix2 q k)))
          + (∑ k : Fin 4, v4 (ix2 p k) * v14 (ix2 q k))) + v18 (ix2 (0 : Fin 1) q) := by
  unfold k0_pay1
  simp only [shapeCast_self]
  refine congrArg₂ (· + ·) (congrArg₂ (· + ·) (congrArg₂ (· + ·) ?_ ?_) ?_) ?_
  · exact Cert.LibMatmulNT.matmul_zero_nt_ix2 dot_S256x1024_S4096x1024_S256x4096_1_1_0_0_n_n rfl rfl wide_l0 wide_l1 wide_r0 wide_r1 none
      (truncf .bf16 v0 bitsLt_bf16_f32) v7 p q
  · exact Cert.LibMatmulNT.matmul_zero_nt_ix2 dot_S256x1024_S4096x1024_S256x4096_1_1_0_0_n_n rfl rfl wide_l0 wide_l1 wide_r0 wide_r1 none
      (truncf .bf16 v2 bitsLt_bf16_f32) v10 p q
  · exact Cert.LibMatmulNT.matmul_zero_nt_ix2 dot_S256x4_S4096x4_S256x4096_1_1_0_0_n_n rfl rfl thin_l0 thin_l1 thin_r0 thin_r1 none
      (truncf .bf16 v4 bitsLt_bf16_f32) v14 p q
  · exact broadcastTo_1b_ab_apply v18 broadcasts_S1x4096_S256x4096 p q

end Cert.KernelIdeal.GateSlab

end
-- ==== Proof.BlockCell.lean ====
/-
  What one grid point computes, as rows of the whole cell update.

  Suppose the eight blocks a grid point reads are parts of the eight arrays: block row p of the input, hidden state, old
  cell state and neighbour features is batch row r p of the corresponding array; row 1024 g + h of each stacked weight
  matrix is row (g, h) of the corresponding weight array; entry 1024 g + h of the bias row is entry (g, h) of the bias.
  Then entry (p, 1024 g + h) of the point's slab of pre-activations is gate g at (r p, h), the four column strips of the
  slab are the four gates, and the two blocks the point writes are rows r p of the next hidden state and of the next
  cell state.
-/
import proofs.«124318_j38792144618011_2_alg».proof.Proof.Gen.KernelIdeal.Value
import proofs.«124318_j38792144618011_2_alg».proof.Proof.GateSlab
import proofs.«124318_j38792144618011_2_alg».proof.Proof.CellSpec

noncomputable section

namespace Cert.KernelIdeal.BlockCell

open Cert.KernelIdeal Cert.KernelIdeal.Gen Idealize.ShloMosaic Idealize.ShloMosaic.ValueIdx
open Cert.CellSpec (gate nextCell nextHidden)

variable (x hid cel : CellSpec.SRows.Idx → EReal) (nb : CellSpec.SNbr.Idx → EReal) (wx wh : CellSpec.SWt.Idx → EReal)
  (wn : CellSpec.SWtNbr.Idx → EReal) (bias : CellSpec.SBias.Idx → EReal)
variable (P0 P1 P7 : Vec Ideal S256x1024 .f32) (P2 : Vec Ideal S256x4 .f32) (P3 P4 : Vec Ideal S4096x1024 .bf16)
  (P5 : Vec Ideal S4096x4 .bf16) (P6 : Vec Ideal S1x4096 .f32)
variable (r : Fin 256 → Fin 8192)

/-- The blocks are parts of the arrays: block row `p` is batch row `r p`; stacked row `1024 g + h` is row `(g, h)`. -/
structure PartOf : Prop where
  inp : ∀ (p : Fin 256) (k : Fin 1024), P0 (ix2 p k) = x (ix2 (r p) k)
  hidn : ∀ (p : Fin 256) (k : Fin 1024), P1 (ix2 p k) = hid (ix2 (r p) k)
  nbr : ∀ (p : Fin 256) (k : Fin 4), P2 (ix2 p k) = nb (ix2 (r p) k)
  old : ∀ (p : Fin 256) (u : Fin 1024), P7 (ix2 p u) = cel (ix2 (r p) u)
  wInp : ∀ (g : Fin 4) (u k : Fin 1024) (q : Fin 4096), q.val = g.val * 1024 + u.val → P3 (ix2 q k) = wx (ix3 g u k)
  wHid : ∀ (g : Fin 4) (u k : Fin 1024) (q : Fin 4096), q.val = g.val * 1024 + u.val → P4 (ix2 q k) = wh (ix3 g u k)
  wNbr : ∀ (g : Fin 4) (u : Fin 1024) (k : Fin 4) (q : Fin 4096), q.val = g.val * 1024 + u.val → P5 (ix2 q k) = wn (ix3 g u k)
  bia : ∀ (g : Fin 4) (u : Fin 1024) (q : Fin 4096), q.val = g.val * 1024 + u.val → P6 (ix2 (0 : Fin 1) q) = bias (ix2 g u)

variable {x hid cel nb wx wh wn bias P0 P1 P7 P2 P3 P4 P5 P6 r}

/-- Entry (p, 1024 g + u) of the point's slab is gate g at (r p, u). -/
theorem slab_gate (H : PartOf x hid cel nb wx wh wn bias P0 P1 P7 P2 P3 P4 P5 P6 r)
    (g : Fin 4) (p : Fin 256) (u : Fin 1024) (q : Fin 4096) (hq : q.val = g.val * 1024 + u.val) :
    k0_pay1 (F := Ideal) P0 P1 P2 P3 P4 P5 P6 (ix2 p q) = gate x hid nb wx wh wn bias g (r p) u := by
  have e0 : ∀ k, P0 (ix2 p k) = x (ix2 (r p) k) := H.inp p
  have e1 : ∀ k, P1 (ix2 p k) = hid (ix2 (r p) k) := H.hidn p
  have e2 : ∀ k, P2 (ix2 p k) = nb (ix2 (r p) k) := H.nbr p
  have e3 : ∀ k, P3 (ix2 q k) = wx (ix3 g u k) := fun k => H.wInp g u k q hq
  have e4 : ∀ k, P4 (ix2 q k) = wh (ix3 g u k) := fun k => H.wHid g u k q hq
  have e5 : ∀ k, P5 (ix2 q k) = wn (ix3 g u k) := fun k => H.wNbr g u k q hq
  have e6 : P6 (ix2 (0 : Fin 1) q) = bias (ix2 g u) := H.bia g u q hq
  rw [GateSlab.slab_apply]
  unfold CellSpec.gate
  simp only [e0, e1, e2, e3, e4, e5, e6]

/-- The block written to the second result holds rows `r p` of the next cell state. -/
theorem cell_block (H : PartOf x hid cel nb wx wh wn bias P0 P1 P7 P2 P3 P4 P5 P6 r) (p : Fin 256) (u : Fin 1024) :
    Value.E9 (F := Ideal) P0 P1 P2 P3 P4 P5 P6 P7 (ix2 p u) = nextCell x hid cel nb wx wh wn bias (r p) u := by
  have hu : u.val < 1024 := u.isLt
  have i0 : Value.ix9_0 (ix2 p u) = ix2 p (⟨u.val + 1024, by omega⟩ : Fin 4096) := funext fun a => Fin.ext (by
    match a with | ⟨0, _⟩ => rfl | ⟨1, _⟩ => rfl)
  have i1 : Value.ix9_1 (ix2 p u) = ix2 p u := funext fun a => Fin.ext (by
    match a with | ⟨0, _⟩ => rfl | ⟨1, _⟩ => rfl)
  have i2 : Value.ix9_2 (ix2 p u) = ix2 p (⟨u.val, by omega⟩ : Fin 4096) := funext fun a => Fin.ext (by
    match a with | ⟨0, _⟩ => rfl | ⟨1, _⟩ => rfl)
  have i3 : Value.ix9_3 (ix2 p u) = ix2 p (⟨u.val + 3072, by omega⟩ : Fin 4096) := funext fun a => Fin.ext (by
    match a with | ⟨0, _⟩ => rfl | ⟨1, _⟩ => rfl)
  show FloatOps.addf (FloatOps.mulf (FloatOps.logistic (k0_pay1 P0 P1 P2 P3 P4 P5 P6 (Value.ix9_0 (ix2 p u)))) (P7 (Value.ix9_1 (ix2 p u))))
      (FloatOps.mulf (FloatOps.logistic (k0_pay1 P0 P1 P2 P3 P4 P5 P6 (Value.ix9_2 (ix2 p u)))) (FloatOps.tanh (k0_pay1 P0 P1 P2 P3 P4 P5 P6 (Value.ix9_3 (ix2 p u))))) = _
  rw [i0, i1, i2, i3,
    slab_gate H 1 p u ⟨u.val + 1024, by omega⟩ (by show u.val + 1024 = 1 * 1024 + u.val; omega),
    slab_gate H 0 p u ⟨u.val, by omega⟩ (by show u.val = 0 * 1024 + u.val; omega),
    slab_gate H 3 p u ⟨u.val + 3072, by omega⟩ (by show u.val + 3072 = 3 * 1024 + u.val; omega),
    H.old p u]
  rfl

/-- The block written to the first result holds rows `r p` of the next hidden state. -/
theorem hidden_block (H : PartOf x hid cel nb wx wh wn bias P0 P1 P7 P2 P3 P4 P5 P6 r) (p : Fin 256) (u : Fin 1024) :
    Value.E8 (F := Ideal) P0 P1 P2 P3 P4 P5 P6 P7 (ix2 p u) = nextHidden x hid cel nb wx wh wn bias (r p) u := by
  have hu : u.val < 1024 := u.isLt
  have i0 : Value.ix8_0 (ix2 p u) = ix2 p (⟨u.val + 2048, by omega⟩ : Fin 4096) := funext fun a => Fin.ext (by
    match a with | ⟨0, _⟩ => rfl | ⟨1, _⟩ => rfl)
  have i1 : Value.ix8_1 (ix2 p u) = ix2 p (⟨u.val + 1024, by omega⟩ : Fin 4096) := funext fun a => Fin.ext (by
    match a with | ⟨0, _⟩ => rfl | ⟨1, _⟩ => rfl)
  have i2 : Value.ix8_2 (ix2 p u) = ix2 p u := funext fun a => Fin.ext (by
    match a with | ⟨0, _⟩ => rfl | ⟨1, _⟩ => rfl)
  have i3 : Value.ix8_3 (ix2 p u) = ix2 p (⟨u.val, by omega⟩ : Fin 4096) := funext fun a => Fin.ext (by
    match a with | ⟨0, _⟩ => rfl | ⟨1, _⟩ => rfl)
  have i4 : Value.ix8_4 (ix2 p u) = ix2 p (⟨u.val + 3072, by omega⟩ : Fin 4096) := funext fun a => Fin.ext (by
    match a with | ⟨0, _⟩ => rfl | ⟨1, _⟩ => rfl)
  show FloatOps.mulf (FloatOps.logistic (k0_pay1 P0 P1 P2 P3 P4 P5 P6 (Value.ix8_0 (ix2 p u))))
      (FloatOps.tanh (FloatOps.addf (FloatOps.mulf (FloatOps.logistic (k0_pay1 P0 P1 P2 P3 P4 P5 P6 (Value.ix8_1 (ix2 p u)))) (P7 (Value.ix8_2 (ix2 p u))))
        (FloatOps.mulf (FloatOps.logistic (k0_pay1 P0 P1 P2 P3 P4 P5 P6 (Value.ix8_3 (ix2 p u)))) (FloatOps.tanh (k0_pay1 P0 P1 P2 P3 P4 P5 P6 (Value.ix8_4 (ix2 p u))))))) = _
  rw [i0, i1, i2, i3, i4,
    slab_gate H 2 p u ⟨u.val + 2048, by omega⟩ (by show u.val + 2048 = 2 * 1024 + u.val; omega),
    slab_gate H 1 p u ⟨u.val + 1024, by omega⟩ (by show u.val + 1024 = 1 * 1024 + u.val; omega),
    slab_gate H 0 p u ⟨u.val, by omega⟩ (by show u.val = 0 * 1024 + u.val; omega),
    slab_gate H 3 p u ⟨u.val + 3072, by omega⟩ (by show u.val + 3072 = 3 * 1024 + u.val; omega),
    H.old p u]
  rfl

end Cert.KernelIdeal.BlockCell

end
-- ==== Proof.HostWeights.lean ====
/-
  The stacked weights and the bias row as the grid finds them.

  Before the grid runs, each weight array, indexed (gate, unit, input), is flattened to a matrix whose row 1024 g + h is
  the row (g, h), and narrowed, which on the extended reals changes nothing; the bias, indexed (gate, unit), is flattened
  to one row whose entry 1024 g + h is the entry (g, h).  Both flattenings keep the row-major order.
-/
import proofs.«124318_j38792144618011_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostWeights

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The first stacked weight matrix: the input weights flattened, then narrowed. -/
theorem wx_flat (c : Dev nD) : (V m c main_v1 : S4096x1024.Idx → Elt Ideal .bf16)
    = truncf (F := Ideal) .bf16 (shapeCast S4096x1024 (m ((c : Thread nD τ).loc main_arg4) : S4x1024x1024.Idx → Elt Ideal .f32) shapeCasts_S4x1024x1024_S4096x1024) bitsLt_bf16_f32 := by
  dsimp only [Gen.V, Gen.hostOps0]
  after_results
  rfl

/-- The second stacked weight matrix: the hidden weights flattened, then narrowed. -/
theorem wh_flat (c : Dev nD) : (V m c main_v3 : S4096x1024.Idx → Elt Ideal .bf16)
    = truncf (F := Ideal) .bf16 (shapeCast S4096x1024 (m ((c : Thread nD τ).loc main_arg5) : S4x1024x1024.Idx → Elt Ideal .f32) shapeCasts_S4x1024x1024_S4096x1024) bitsLt_bf16_f32 := by
  dsimp only [Gen.V, Gen.hostOps0]
  after_results
  rfl

/-- The third stacked weight matrix: the neighbour weights flattened, then narrowed. -/
theorem wn_flat (c : Dev nD) : (V m c main_v5 : S4096x4.Idx → Elt Ideal .bf16)
    = truncf (F := Ideal) .bf16 (shapeCast S4096x4 (m ((c : Thread nD τ).loc main_arg6) : S4x1024x4.Idx → Elt Ideal .f32) shapeCasts_S4x1024x4_S4096x4) bitsLt_bf16_f32 := by
  dsimp only [Gen.V, Gen.hostOps0]
  after_results
  rfl

/-- The bias row: the bias flattened. -/
theorem bias_flat (c : Dev nD) : (V m c main_v6 : S1x4096.Idx → Elt Ideal .f32)
    = shapeCast S1x4096 (m ((c : Thread nD τ).loc main_arg7)) shapeCasts_S4x1024_S1x4096 := by
  dsimp only [Gen.V, Gen.hostOps0]
  after_results
  rfl

/-! ## Read at an entry -/

theorem wx_flat_apply (c : Dev nD) (g : Fin 4) (u : Fin 1024) (k : Fin 1024) (q : Fin 4096) (hq : q.val = g.val * 1024 + u.val) :
    (V m c main_v1 : S4096x1024.Idx → Elt Ideal .bf16) (ix2 q k)
      = (m ((c : Thread nD τ).loc main_arg4) : S4x1024x1024.Idx → Elt Ideal .f32) (ix3 g u k) := by
  rw [wx_flat]
  show shapeCast S4096x1024 (m ((c : Thread nD τ).loc main_arg4)) shapeCasts_S4x1024x1024_S4096x1024 (ix2 q k) = _
  refine shapeCast_apply _ _ _ (ix3 g u k) ?_
  rw [Shape.rowMajor_val_three, Shape.rowMajor_val_two]
  show (g.val * 1024 + u.val) * 1024 + k.val = q.val * 1024 + k.val
  rw [hq]

theorem wh_flat_apply (c : Dev nD) (g : Fin 4) (u : Fin 1024) (k : Fin 1024) (q : Fin 4096) (hq : q.val = g.val * 1024 + u.val) :
    (V m c main_v3 : S4096x1024.Idx → Elt Ideal .bf16) (ix2 q k)
      = (m ((c : Thread nD τ).loc main_arg5) : S4x1024x1024.Idx → Elt Ideal .f32) (ix3 g u k) := by
  rw [wh_flat]
  show shapeCast S4096x1024 (m ((c : Thread nD τ).loc main_arg5)) shapeCasts_S4x1024x1024_S4096x1024 (ix2 q k) = _
  refine shapeCast_apply _ _ _ (ix3 g u k) ?_
  rw [Shape.rowMajor_val_three, Shape.rowMajor_val_two]
  show (g.val * 1024 + u.val) * 1024 + k.val = q.val * 1024 + k.val
  rw [hq]

theorem wn_flat_apply (c : Dev nD) (g : Fin 4) (u : Fin 1024) (k : Fin 4) (q : Fin 4096) (hq : q.val = g.val * 1024 + u.val) :
    (V m c main_v5 : S4096x4.Idx → Elt Ideal .bf16) (ix2 q k)
      = (m ((c : Thread nD τ).loc main_arg6) : S4x1024x4.Idx → Elt Ideal .f32) (ix3 g u k) := by
  rw [wn_flat]
  show shapeCast S4096x4 (m ((c : Thread nD τ).loc main_arg6)) shapeCasts_S4x1024x4_S4096x4 (ix2 q k) = _
  refine shapeCast_apply _ _ _ (ix3 g u k) ?_
  rw [Shape.rowMajor_val_three, Shape.rowMajor_val_two]
  show (g.val * 1024 + u.val) * 4 + k.val = q.val * 4 + k.val
  rw [hq]

theorem bias_flat_apply (c : Dev nD) (g : Fin 4) (u : Fin 1024) (q : Fin 4096) (hq : q.val = g.val * 1024 + u.val) :
    (V m c main_v6 : S1x4096.Idx → Elt Ideal .f32) (ix2 (0 : Fin 1) q)
      = (m ((c : Thread nD τ).loc main_arg7) : S4x1024.Idx → Elt Ideal .f32) (ix2 g u) := by
  rw [bias_flat]
  refine shapeCast_apply _ _ _ (ix2 g u) ?_
  rw [Shape.rowMajor_val_two, Shape.rowMajor_val_two]
  show g.val * 1024 + u.val = 0 * 4096 + q.val
  rw [hq]; omega

end Cert.KernelIdeal.HostWeights

end
-- ==== Proof.KernelCell.lean ====
/-
  The kernel's two result arrays are the cell update of the specification.

  The grid has 32 points; point t holds batch rows 256 t … 256 t + 255.  Its blocks of the input, the hidden state, the old
  cell state and the neighbour features are those rows of the arguments; the three stacked weight matrices and the bias row
  are the same whole arrays at every point, the flattened weights and bias.  So by the block lemma the two blocks point t
  writes back are rows 256 t … 256 t + 255 of the next hidden state and of the next cell state.  The 32 blocks tile each
  result (batch row i lies in the block of point i / 256), hence each result array ends holding the whole function.
-/
import proofs.«124318_j38792144618011_2_alg».proof.Proof.Gen.KernelIdeal.Value
import proofs.«124318_j38792144618011_2_alg».proof.Proof.BlockCell
import proofs.«124318_j38792144618011_2_alg».proof.Proof.HostWeights
import proofs.«124318_j38792144618011_2_alg».proof.Proof.CellSpec
import Idealize.ShloMosaic.Lib.Pipeline.Value

noncomputable section

namespace Cert.KernelIdeal.CellValue

open Cert.KernelIdeal Cert.KernelIdeal.Gen Idealize.ShloMosaic Idealize.ShloMosaic.TcCoe Idealize.SL.Sem
open Idealize.ShloMosaic.ValueIdx
open Idealize.ShloMosaic.Pipeline (Dat)
open Cert.CellSpec (hiddenArr cellArr nextHidden nextCell)

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the grid: the four row-blocked inputs and the two results sit at block row t, the stacked weights
    and the bias at block (0, 0). -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The batch row under block row `p` of grid point `t`. -/
def rowOf (t : Fin cfg0.N) (p : Fin 256) : Fin 8192 :=
  ⟨t.val * 256 + p.val, by have h := t.isLt; have hN : cfg0.N = 32 := N_0; have hp := p.isLt; omega⟩

theorem rowOf_val (t : Fin cfg0.N) (p : Fin 256) : (rowOf t p).val = t.val * 256 + p.val := rfl

/-! ## The blocks a point reads -/

theorem blk_inp (c : Dev nD) (t : Fin cfg0.N) (p : Fin 256) (k : Fin 1024) :
    (iblk m c 0 t : Vec Ideal S256x1024 .f32) (ix2 p k) = ((m ((c : Thread nD τ).loc main_arg0)) : S8192x1024.Idx → EReal) (ix2 (rowOf t p) k) := by
  obtain ⟨⟨e0, e1⟩, -⟩ := block_indices t
  show V m c main_arg0 (((cfg0.win 0).blk t).view.emb (ix2 p k)) = _
  rw [V_main_arg0]
  refine congrArg ((m ((c : Thread nD τ).loc main_arg0)) : S8192x1024.Idx → EReal) ?_
  funext a; apply Fin.ext
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

theorem blk_hid (c : Dev nD) (t : Fin cfg0.N) (p : Fin 256) (k : Fin 1024) :
    (iblk m c 1 t : Vec Ideal S256x1024 .f32) (ix2 p k) = ((m ((c : Thread nD τ).loc main_arg1)) : S8192x1024.Idx → EReal) (ix2 (rowOf t p) k) := by
  obtain ⟨-, ⟨e0, e1⟩, -⟩ := block_indices t
  show V m c main_arg1 (((cfg0.win 1).blk t).view.emb (ix2 p k)) = _
  rw [V_main_arg1]
  refine congrArg ((m ((c : Thread nD τ).loc main_arg1)) : S8192x1024.Idx → EReal) ?_
  funext a; apply Fin.ext
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

theorem blk_cel (c : Dev nD) (t : Fin cfg0.N) (p : Fin 256) (k : Fin 1024) :
    (iblk m c 2 t : Vec Ideal S256x1024 .f32) (ix2 p k) = ((m ((c : Thread nD τ).loc main_arg2)) : S8192x1024.Idx → EReal) (ix2 (rowOf t p) k) := by
  obtain ⟨-, -, ⟨e0, e1⟩, -⟩ := block_indices t
  show V m c main_arg2 (((cfg0.win 2).blk t).view.emb (ix2 p k)) = _
  rw [V_main_arg2]
  refine congrArg ((m ((c : Thread nD τ).loc main_arg2)) : S8192x1024.Idx → EReal) ?_
  funext a; apply Fin.ext
  match a with
  | ⟨0, _⟩ => show win0_2.index t (0 : Fin 2) * 256 + 1 * p.val = t.val * 256 + p.val; rw [e0]; omega
  | ⟨1, _⟩ => show win0_2.index t (1 : Fin 2) * 1024 + 1 * k.val = k.val; rw [e1]; omega

theorem blk_nbr (c : Dev nD) (t : Fin cfg0.N) (p : Fin 256) (k : Fin 4) :
    (iblk m c 3 t : Vec Ideal S256x4 .f32) (ix2 p k) = ((m ((c : Thread nD τ).loc main_arg3)) : S8192x4.Idx → EReal) (ix2 (rowOf t p) k) := by
  obtain ⟨-, -, -, ⟨e0, e1⟩, -⟩ := block_indices t
  show V m c main_arg3 (((cfg0.win 3).blk t).view.emb (ix2 p k)) = _
  rw [V_main_arg3]
  refine congrArg ((m ((c : Thread nD τ).loc main_arg3)) : S8192x4.Idx → EReal) ?_
  funext a; apply Fin.ext
  match a with
  | ⟨0, _⟩ => show win0_3.index t (0 : Fin 2) * 256 + 1 * p.val = t.val * 256 + p.val; rw [e0]; omega
  | ⟨1, _⟩ => show win0_3.index t (1 : Fin 2) * 4 + 1 * k.val = k.val; rw [e1]; omega

theorem blk_wx (c : Dev nD) (t : Fin cfg0.N) (q : Fin 4096) (k : Fin 1024) :
    (iblk m c 4 t : Vec Ideal S4096x1024 .bf16) (ix2 q k) = (V m c main_v1 : S4096x1024.Idx → Elt Ideal .bf16) (ix2 q k) := by
  obtain ⟨-, -, -, -, ⟨e0, e1⟩, -⟩ := block_indices t
  show V m c main_v1 (((cfg0.win 4).blk t).view.emb (ix2 q k)) = _
  refine congrArg (V m c main_v1 : S4096x1024.Idx → Elt Ideal .bf16) ?_
  funext a; apply Fin.ext
  match a with
  | ⟨0, _⟩ => show win0_4.index t (0 : Fin 2) * 4096 + 1 * q.val = q.val; rw [e0]; omega
  | ⟨1, _⟩ => show win0_4.index t (1 : Fin 2) * 1024 + 1 * k.val = k.val; rw [e1]; omega

theorem blk_wh (c : Dev nD) (t : Fin cfg0.N) (q : Fin 4096) (k : Fin 1024) :
    (iblk m c 5 t : Vec Ideal S4096x1024 .bf16) (ix2 q k) = (V m c main_v3 : S4096x1024.Idx → Elt Ideal .bf16) (ix2 q k) := by
  obtain ⟨-, -, -, -, -, ⟨e0, e1⟩, -⟩ := block_indices t
  show V m c main_v3 (((cfg0.win 5).blk t).view.emb (ix2 q k)) = _
  refine congrArg (V m c main_v3 : S4096x1024.Idx → Elt Ideal .bf16) ?_
  funext a; apply Fin.ext
  match a with
  | ⟨0, _⟩ => show win0_5.index t (0 : Fin 2) * 4096 + 1 * q.val = q.val; rw [e0]; omega
  | ⟨1, _⟩ => show win0_5.index t (1 : Fin 2) * 1024 + 1 * k.val = k.val; rw [e1]; omega

theorem blk_wn (c : Dev nD) (t : Fin cfg0.N) (q : Fin 4096) (k : Fin 4) :
    (iblk m c 6 t : Vec Ideal S4096x4 .bf16) (ix2 q k) = (V m c main_v5 : S4096x4.Idx → Elt Ideal .bf16) (ix2 q k) := by
  obtain ⟨-, -, -, -, -, -, ⟨e0, e1⟩, -⟩ := block_indices t
  show V m c main_v5 (((cfg0.win 6).blk t).view.emb (ix2 q k)) = _
  refine congrArg (V m c main_v5 : S4096x4.Idx → Elt Ideal .bf16) ?_
  funext a; apply Fin.ext
  match a with
  | ⟨0, _⟩ => show win0_6.index t (0 : Fin 2) * 4096 + 1 * q.val = q.val; rw [e0]; omega
  | ⟨1, _⟩ => show win0_6.index t (1 : Fin 2) * 4 + 1 * k.val = k.val; rw [e1]; omega

theorem blk_bias (c : Dev nD) (t : Fin cfg0.N) (q : Fin 4096) :
    (iblk m c 7 t : Vec Ideal S1x4096 .f32) (ix2 (0 : Fin 1) q) = (V m c main_v6 : S1x4096.Idx → Elt Ideal .f32) (ix2 (0 : Fin 1) q) := by
  obtain ⟨-, -, -, -, -, -, -, ⟨e0, e1⟩, -⟩ := block_indices t
  show V m c main_v6 (((cfg0.win 7).blk t).view.emb (ix2 (0 : Fin 1) q)) = _
  refine congrArg (V m c main_v6 : S1x4096.Idx → Elt Ideal .f32) ?_
  funext a; apply Fin.ext
  match a with
  | ⟨0, _⟩ => show win0_7.index t (0 : Fin 2) * 1 + 1 * 0 = 0; rw [e0]
  | ⟨1, _⟩ => show win0_7.index t (1 : Fin 2) * 4096 + 1 * q.val = q.val; rw [e1]; omega

/-- The blocks of point `t` are parts of the argument arrays: its 256 rows, all the flattened weights, the flattened bias. -/
theorem blocks_partOf (c : Dev nD) (t : Fin cfg0.N) :
    BlockCell.PartOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      (iblk m c 0 t) (iblk m c 1 t) (iblk m c 2 t) (iblk m c 3 t) (iblk m c 4 t) (iblk m c 5 t) (iblk m c 6 t) (iblk m c 7 t) (rowOf t) where
  inp := blk_inp m c t
  hidn := blk_hid m c t
  nbr := blk_nbr m c t
  old := blk_cel m c t
  wInp g u k q hq := (blk_wx m c t q k).trans (HostWeights.wx_flat_apply m c g u k q hq)
  wHid g u k q hq := (blk_wh m c t q k).trans (HostWeights.wh_flat_apply m c g u k q hq)
  wNbr g u k q hq := (blk_wn m c t q k).trans (HostWeights.wn_flat_apply m c g u k q hq)
  bia g u q hq := (blk_bias m c t q).trans (HostWeights.bias_flat_apply m c g u q hq)

/-! ## What a point writes back -/

/-- Where entry `j` of point `t`'s result block sits in the result array. -/
theorem out_emb8 (t : Fin cfg0.N) (j : S256x1024.Idx) : ((cfg0.win 8).blk t).view.emb j = ix2 (rowOf t (j 0)) (j 1) := by
  obtain ⟨-, -, -, -, -, -, -, -, ⟨e0, e1⟩, -⟩ := block_indices t
  funext a; apply Fin.ext
  match a with
  | ⟨0, _⟩ => show win0_8.index t (0 : Fin 2) * 256 + 1 * (j 0).val = t.val * 256 + (j 0).val; rw [e0]; omega
  | ⟨1, _⟩ => show win0_8.index t (1 : Fin 2) * 1024 + 1 * (j 1).val = (j 1).val; rw [e1]; omega

theorem out_emb9 (t : Fin cfg0.N) (j : S256x1024.Idx) : ((cfg0.win 9).blk t).view.emb j = ix2 (rowOf t (j 0)) (j 1) := by
  obtain ⟨-, -, -, -, -, -, -, -, -, ⟨e0, e1⟩⟩ := block_indices t
  funext a; apply Fin.ext
  match a with
  | ⟨0, _⟩ => show win0_9.index t (0 : Fin 2) * 256 + 1 * (j 0).val = t.val * 256 + (j 0).val; rw [e0]; omega
  | ⟨1, _⟩ => show win0_9.index t (1 : Fin 2) * 1024 + 1 * (j 1).val = (j 1).val; rw [e1]; omega

/-- Entry `j` of the block point `t` leaves for the first result is the next hidden state at batch row
    `256 t + j 0`, unit `j 1`. -/
theorem hidden_point (c : Dev nD) (t : Fin cfg0.N) (j : S256x1024.Idx) :
    out0_8 (iblk m c 0 t) (iblk m c 1 t) (iblk m c 2 t) (iblk m c 3 t) (iblk m c 4 t) (iblk m c 5 t) (iblk m c 6 t) (iblk m c 7 t) j
      = nextHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rowOf t (j 0)) (j 1) := by
  unfold out0_8
  simp only [View.ld_unit_zero (S := S256x1024) zero_offsets, View.ld_unit_zero (S := S256x4) zero_offsets,
    View.ld_unit_zero (S := S4096x1024) zero_offsets, View.ld_unit_zero (S := S4096x4) zero_offsets,
    View.ld_unit_zero (S := S1x4096) zero_offsets]
  refine (Value.canon8_eq (iblk m c 0 t) (iblk m c 1 t) (iblk m c 3 t) (iblk m c 4 t) (iblk m c 5 t) (iblk m c 6 t) (iblk m c 7 t) (iblk m c 2 t) j).trans ?_
  rw [eq_ix2 j]
  exact BlockCell.hidden_block (blocks_partOf m c t) (j 0) (j 1)

/-- Entry `j` of the block point `t` leaves for the second result is the next cell state there. -/
theorem cell_point (c : Dev nD) (t : Fin cfg0.N) (j : S256x1024.Idx) :
    out0_9 (iblk m c 0 t) (iblk m c 1 t) (iblk m c 2 t) (iblk m c 3 t) (iblk m c 4 t) (iblk m c 5 t) (iblk m c 6 t) (iblk m c 7 t) j
      = nextCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rowOf t (j 0)) (j 1) := by
  unfold out0_9
  simp only [View.ld_unit_zero (S := S256x1024) zero_offsets, View.ld_unit_zero (S := S256x4) zero_offsets,
    View.ld_unit_zero (S := S4096x1024) zero_offsets, View.ld_unit_zero (S := S4096x4) zero_offsets,
    View.ld_unit_zero (S := S1x4096) zero_offsets]
  refine (Value.canon9_eq (iblk m c 0 t) (iblk m c 1 t) (iblk m c 3 t) (iblk m c 4 t) (iblk m c 5 t) (iblk m c 6 t) (iblk m c 7 t) (iblk m c 2 t) j).trans ?_
  rw [eq_ix2 j]
  exact BlockCell.cell_block (blocks_partOf m c t) (j 0) (j 1)

/-- Point `t` writes back block `t` of the next hidden state. -/
theorem flushed_hidden (c : Dev nD) (t : Fin cfg0.N) :
    (dats m 0 c).flushed 8 t = ((cfg0.win 8).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed8]
  funext j
  show out0_8 (iblk m c 0 t) (iblk m c 1 t) (iblk m c 2 t) (iblk m c 3 t) (iblk m c 4 t) (iblk m c 5 t) (iblk m c 6 t) (iblk m c 7 t) j
    = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb j)
  rw [hidden_point, out_emb8]
  rfl

/-- Point `t` writes back block `t` of the next cell state. -/
theorem flushed_cell (c : Dev nD) (t : Fin cfg0.N) :
    (dats m 0 c).flushed 9 t = ((cfg0.win 9).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed9]
  funext j
  show out0_9 (iblk m c 0 t) (iblk m c 1 t) (iblk m c 2 t) (iblk m c 3 t) (iblk m c 4 t) (iblk m c 5 t) (iblk m c 6 t) (iblk m c 7 t) j
    = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 9).blk t).view.emb j)
  rw [cell_point, out_emb9]
  rfl

/-! ## The blocks tile the results -/

theorem mem_blk8 (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v7_0).slice (win0_8.rect t)).set ↔ _
  rw [View.set_slice_whole, Rect.mem_set_unit]
  exact Iff.rfl

theorem mem_blk9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v7_1).slice (win0_9.rect t)).set ↔ _
  rw [View.set_slice_whole, Rect.mem_set_unit]
  exact Iff.rfl

/-- Batch row `i 0` lies in the block of point `i 0 / 256`. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, -, -, -, -, ⟨e0, e1⟩, -⟩ := block_indices t
  refine ⟨t, flush0_8 t, ?_⟩
  rw [mem_blk8]
  intro a
  match a with
  | ⟨0, _⟩ =>
    show win0_8.index t (0 : Fin 2) * 256 ≤ (i 0).val ∧ (i 0).val < win0_8.index t (0 : Fin 2) * 256 + 256
    rw [e0]; omega
  | ⟨1, _⟩ =>
    show win0_8.index t (1 : Fin 2) * 1024 ≤ (i 1).val ∧ (i 1).val < win0_8.index t (1 : Fin 2) * 1024 + 1024
    rw [e1]; omega

theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, -, -, -, -, -, ⟨e0, e1⟩⟩ := block_indices t
  refine ⟨t, flush0_9 t, ?_⟩
  rw [mem_blk9]
  intro a
  match a with
  | ⟨0, _⟩ =>
    show win0_9.index t (0 : Fin 2) * 256 ≤ (i 0).val ∧ (i 0).val < win0_9.index t (0 : Fin 2) * 256 + 256
    rw [e0]; omega
  | ⟨1, _⟩ =>
    show win0_9.index t (1 : Fin 2) * 1024 ≤ (i 1).val ∧ (i 1).val < win0_9.index t (1 : Fin 2) * 1024 + 1024
    rw [e1]; omega

/-! ## The arrays after the run -/

theorem final_hidden (c : Dev nD) : (dats m 0 c).arrAt 8 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed_hidden m c t) cover8

theorem final_cell (c : Dev nD) : (dats m 0 c).arrAt 9 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 9 (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed_cell m c t) cover9

/-- Every weakly fair execution of the kernel's program ends with the first result at the next hidden state and the second
    at the next cell state of the arguments, the arguments unchanged. -/
theorem run : θ_run defs (onTc (τ := τ) (main (F := Ideal))) ⟨m, fun _ => 0, ρ⟩ fun r => ∀ c : Dev nD,
      r.2.mem ((c : Thread nD τ).loc main_v7_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v7_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_hidden m c), (h c).2.1.trans (final_cell m c), (h c).2.2⟩)
    (Value.run_blocks m ρ)

end Cert.KernelIdeal.CellValue

end
-- ==== Proof.lean ====
/-
  A recurrent cell with neighbour features: the fused kernel against the gate-by-gate reference, on the extended reals.

  Both programs compute, for every batch row b and unit h, the four gate pre-activations
      z g = ((∑ k, x b k · Wx g h k) + (∑ k, hid b k · Wh g h k) + (∑ k, nb b k · Wn g h k)) + bias g h,
  then  cell' = σ (z 1) · cell + σ (z 0) · tanh (z 3)  and  hidden' = σ (z 2) · tanh cell'  (Proof/CellSpec.lean).

  The reference keeps the gates as a middle axis of a three-axis array and slices it (Proof/RefCell.lean).  The kernel
  stacks the four gates along the rows of each weight matrix (row 1024 g + h), walks the batch in 32 blocks of 256 rows,
  and in each block forms one 256 by 4096 slab of pre-activations whose four column strips are the gates
  (Proof/GateSlab.lean, Proof/BlockCell.lean, Proof/HostWeights.lean, Proof/KernelCell.lean).  On the extended reals the
  narrowing of the matrix operands is the identity, a matrix product into a zero accumulator is the plain sum over the
  contracted axis, the sums are taken in the same order on both sides, and the reference's 1 / (1 + exp (-z)) is the
  logistic function the kernel applies; so the two pairs of results are the same functions of the arguments.  No step uses
  that the inputs are finite.  The kernel's idealization rewrote nothing, so there is nothing to preserve.
-/
import proofs.«124318_j38792144618011_2_alg».proof.Defs
import proofs.«124318_j38792144618011_2_alg».proof.Proof.Gen.Kernel
import proofs.«124318_j38792144618011_2_alg».proof.Proof.Gen.Kernel.Skeleton
import proofs.«124318_j38792144618011_2_alg».proof.Proof.Gen.Kernel.Launch
import proofs.«124318_j38792144618011_2_alg».proof.Proof.Gen.Kernel.Points
import proofs.«124318_j38792144618011_2_alg».proof.Proof.Gen.Kernel.Frame
import proofs.«124318_j38792144618011_2_alg».proof.Proof.Gen.KernelIdeal
import proofs.«124318_j38792144618011_2_alg».proof.Proof.Gen.KernelIdeal.Skeleton
import proofs.«124318_j38792144618011_2_alg».proof.Proof.Gen.KernelIdeal.Launch
import proofs.«124318_j38792144618011_2_alg».proof.Proof.Gen.KernelIdeal.Points
import proofs.«124318_j38792144618011_2_alg».proof.Proof.Gen.KernelIdeal.Frame
import proofs.«124318_j38792144618011_2_alg».proof.Proof.Gen.ReferenceIdeal
import proofs.«124318_j38792144618011_2_alg».proof.Proof.Gen.Pre_finite_inputs
import proofs.«124318_j38792144618011_2_alg».proof.Proof.Gen.KernelIdeal.Value
import proofs.«124318_j38792144618011_2_alg».proof.Proof.Gen.ReferenceIdeal.Run
import proofs.«124318_j38792144618011_2_alg».proof.Proof.Gen.ReferenceIdeal.Read
import proofs.«124318_j38792144618011_2_alg».proof.Proof.CellSpec
import proofs.«124318_j38792144618011_2_alg».proof.Proof.RefCell
import proofs.«124318_j38792144618011_2_alg».proof.Proof.KernelCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the eight arguments, the kernel's first result and the reference's first result are both
    the next hidden state of the specification, their second results both the next cell state. -/
theorem algebraic : Cert.algebraic_KernelIdeal_ReferenceIdeal := by
  intro m ρ m' ρ' _ hagree
  refine ⟨fun c => Cert.CellSpec.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.CellSpec.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.val_main_v39_eq, Cert.ReferenceIdeal.RefCell.hidden_eq, a0, a1, a2, a3, a4, a5, a6, a7]
  · obtain ⟨a0, a1, a2, a3, a4, a5, a6, a7⟩ := hagree c
    rw [Cert.ReferenceIdeal.Read.val_main_v37_eq, Cert.ReferenceIdeal.RefCell.cell_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
